-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2048 : Shape := ⟨2, ![65536, 2048]⟩
abbrev S2048 : Shape := ⟨1, ![2048]⟩
abbrev S64x2048 : Shape := ⟨2, ![64, 2048]⟩
abbrev S64 : Shape := ⟨1, ![64]⟩
abbrev S_ : Shape := ⟨0, ![]⟩

class Facts : Prop where
  bcast_S_S65536x2048 : S_.BroadcastsInDim S65536x2048 (![] : Fin 0 → Fin S65536x2048.rank)
  reducesTo_S65536x2048_S_d0_1 : S65536x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S65536x2048 .f32) (main_arg1 : FVec F S2048 .f32) (main_arg2 : FVec F S2048 .f32) (main_arg3 : FVec F S64x2048 .f32) (main_arg4 : FVec F S64 .f32) : IVec S_ 1 :=
  let main_v0 : FVec F S65536x2048 .f32 := Host.absf main_arg0
  let main_cst : FVec F S_ .f32 := constant S_ .f32 0x7F800000#32
  let main_v1 : FVec F S65536x2048 .f32 := broadcastInDim S65536x2048 ![] bcast_S_S65536x2048 main_cst
  let main_v2 : IVec S65536x2048 1 := cmpf .olt main_v0 main_v1
  let main_c : IVec S_ 1 := constantI S_ 1 1#1
  let main_v3 : IVec S_ 1 := (fun x v => Host.reduce IntOp.andi x v reducesTo_S65536x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_v13 main_v16
-- ==== Kernel.lean ====
abbrev S65536x2048 : Shape := ⟨2, ![65536, 2048]⟩
abbrev S2048 : Shape := ⟨1, ![2048]⟩
abbrev S64x2048 : Shape := ⟨2, ![64, 2048]⟩
abbrev S64 : Shape := ⟨1, ![64]⟩
abbrev S1x2048 : Shape := ⟨2, ![1, 2048]⟩
abbrev S_ : Shape := ⟨0, ![]⟩
abbrev S2048x64 : Shape := ⟨2, ![2048, 64]⟩
abbrev S65536x64 : Shape := ⟨2, ![65536, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩
abbrev S1x64 : Shape := ⟨2, ![1, 64]⟩

abbrev nBuf : Space → Nat
  | .hbm => 19
  | .vmem => 7
  | .smem => 0
  | _ => 0

abbrev bufTy : (tb : Table) → Fin (tcTables nBuf tb) → BufTy
  | .hbm, ⟨0, _⟩ => ⟨S65536x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S1x2048, .f32⟩
  | .hbm, ⟨6, _⟩ => ⟨S64x2048, .f32⟩
  | .hbm, ⟨7, _⟩ => ⟨S64x2048, .f32⟩
  | .hbm, ⟨8, _⟩ => ⟨S_, .f32⟩
  | .hbm, ⟨9, _⟩ => ⟨S64, .f32⟩
  | .hbm, ⟨10, _⟩ => ⟨S1x2048, .f32⟩
  | .hbm, ⟨11, _⟩ => ⟨S64x2048, .f32⟩
  | .hbm, ⟨12, _⟩ => ⟨S64x2048, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2048x64, .f32⟩
  | .hbm, ⟨17, _⟩ => ⟨S2048x64, .bf16⟩
  | .hbm, ⟨18, _⟩ => ⟨S65536x64, .f32⟩
  | .local _ .vmem, ⟨0, _⟩ => ⟨S1024x2048, .f32⟩
  | .local _ .vmem, ⟨1, _⟩ => ⟨S1024x2048, .f32⟩
  | .local _ .vmem, ⟨2, _⟩ => ⟨S2048x64, .bf16⟩
  | .local _ .vmem, ⟨3, _⟩ => ⟨S64, .f32⟩
  | .local _ .vmem, ⟨4, _⟩ => ⟨S64, .f32⟩
  | .local _ .vmem, ⟨5, _⟩ => ⟨S1024x64, .f32⟩
  | .local _ .vmem, ⟨6, _⟩ => ⟨S1024x64, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  reducesTo_S64x2048_S64_d1 : S64x2048.ReducesTo [1] S64
  h_S_ : 0 < S_.numel
  transposes_S64x2048_S2048x64_1_0 : S64x2048.Transposes [1, 0] S2048x64
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1024x1_S1024x64 : S1024x1.Broadcasts S1024x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S65536x2048.size a
  hwx0_0 : ∀ i : grid0.Coords, EltTy.bits .f32 = 32 ∨ (Rect.block (s := S65536x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .bf16 = 32 ∨ (Rect.block (s := S2048x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S65536x64.size a
  hwx0_4 : ∀ i : grid0.Coords, EltTy.bits .f32 = 32 ∨ (Rect.block (s := S65536x64) S1024x64.size (cc0_transform_4 i) (hinb0_4 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x2048 : Shape := ⟨2, ![65536, 2048]⟩
abbrev S2048 : Shape := ⟨1, ![2048]⟩
abbrev S64x2048 : Shape := ⟨2, ![64, 2048]⟩
abbrev S64 : Shape := ⟨1, ![64]⟩
abbrev S_ : Shape := ⟨0, ![]⟩
abbrev S65536 : Shape := ⟨1, ![65536]⟩
abbrev S65536x1 : Shape := ⟨2, ![65536, 1]⟩
abbrev S1x2048 : Shape := ⟨2, ![1, 2048]⟩
abbrev S65536x64 : Shape := ⟨2, ![65536, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S65536x2048, .f32⟩
  | .hbm, ⟨12, _⟩ => ⟨S65536x2048, .f32⟩
  | .hbm, ⟨13, _⟩ => ⟨S65536x2048, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x2048, .f32⟩
  | .hbm, ⟨21, _⟩ => ⟨S65536x2048, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x2048, .f32⟩
  | .hbm, ⟨27, _⟩ => ⟨S65536x2048, .f32⟩
  | .hbm, ⟨28, _⟩ => ⟨S1x2048, .f32⟩
  | .hbm, ⟨29, _⟩ => ⟨S65536x2048, .f32⟩
  | .hbm, ⟨30, _⟩ => ⟨S65536x2048, .f32⟩
  | .hbm, ⟨31, _⟩ => ⟨S1x2048, .f32⟩
  | .hbm, ⟨32, _⟩ => ⟨S65536x2048, .f32⟩
  | .hbm, ⟨33, _⟩ => ⟨S65536x2048, .f32⟩
  | .hbm, ⟨34, _⟩ => ⟨S65536x64, .f32⟩
  | .hbm, ⟨35, _⟩ => ⟨S1x64, .f32⟩
  | .hbm, ⟨36, _⟩ => ⟨S65536x64, .f32⟩
  | .hbm, ⟨37, _⟩ => ⟨S65536x64, .f32⟩
  | .hbm, ⟨38, _⟩ => ⟨S_, .f32⟩
  | .hbm, ⟨39, _⟩ => ⟨S65536x64, .f32⟩
  | .hbm, ⟨40, _⟩ => ⟨S65536x64, .f32⟩
  | .hbm, ⟨41, _⟩ => ⟨S65536x64, .f32⟩
  | .hbm, ⟨42, _⟩ => ⟨S65536x64, .f32⟩
  | .hbm, ⟨43, _⟩ => ⟨S65536x64, .i1⟩
  | .hbm, ⟨44, _⟩ => ⟨S65536x64, .f32⟩
  | .hbm, ⟨45, _⟩ => ⟨S65536x64, .f32⟩
  | .hbm, ⟨46, _⟩ => ⟨S65536x64, .f32⟩
  | .hbm, ⟨47, _⟩ => ⟨S65536x64, .f32⟩
  | .hbm, ⟨48, _⟩ => ⟨S65536x64, .f32⟩
  | .hbm, ⟨49, _⟩ => ⟨S65536x64, .f32⟩
  | .hbm, ⟨50, _⟩ => ⟨S65536x64, .f32⟩
  | .hbm, ⟨51, _⟩ => ⟨S65536x64, .f32⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v28 : Ref sig .tc := ⟨.hbm, 51, rfl⟩

abbrev nD : Nat := 1
abbrev τ : Topo := Topo.v7x

variable {F : FTy → Type} [FloatOps F]

class Facts₀ : Prop where
  reducesTo_S65536x2048_S65536_d1 : S65536x2048.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x2048_0_1 : S65536x1.BroadcastsInDim S65536x2048 (![0, 1] : Fin 2 → Fin S65536x2048.rank)
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  dot_S65536x2048_S64x2048_S65536x64_1_1_0_0_n_n_wf : DotDims.WF S65536x2048 S64x2048 S65536x64 [1] [1] [0] [0] [] []

variable [Facts₀]

def dot_S65536x2048_S64x2048_S65536x64_1_1_0_0_n_n : DotDims S65536x2048 S64x2048 S65536x64 where
  lhsContracting := [1]
  rhsContracting := [1]
  lhsNonContracting := [0]
  rhsNonContracting := [0]
  lhsBatch := []
  rhsBatch := []
  wf := dot_S65536x2048_S64x2048_S65536x64_1_1_0_0_n_n_wf

class Facts : Prop extends Facts₀ where

variable [Facts]
-- ==== Proof.Spec.lean ====
/-
  The function both programs compute, stated once over the argument arrays, with nothing of either program in it.

  A row of the input is a vector `X : Fin 2048 → EReal`.  LayerNorm takes its mean `μ = (∑ X) / 2048`, a variance,
  the scale `rsqrt (variance + ε)`, multiplies by `γ`, adds `β`; the linear layer contracts the normalised row with a row
  `W c` of the weights and adds the bias `b c`; softplus finishes.  Two spellings of the value before softplus are set
  side by side here:

  * `preFolded`: the variance as `mean (X²) − μ²`, and `γ`, `β` folded through the contraction —
    `scale · (∑ X·(W·γ) − μ · ∑ W·γ) + (b + ∑ β·W)`;
  * `preDirect`: the variance as `mean ((X − μ)²)` and the contraction of the normalised row itself —
    `∑ ((X − μ) · scale · γ + β) · W + b`.

  They agree when every entry is a real number (Algebra.lean); on the extended reals distributivity fails at the
  infinities, which is why the agreement needs finite inputs.
-/
import Idealize.ShloMosaic.PureOps.Ideal
import Idealize.ShloMosaic.PureOps.Ideal.Laws
import Idealize.ShloMosaic.Lib.ValueIdx

noncomputable section

namespace Cert.Readout

open Idealize.ShloMosaic Idealize.ShloMosaic.ValueIdx

/-- The variance's guard `ε`: the single-precision number nearest `1e-5`, as the extended real its pattern denotes. -/
def epsE : EReal := Ideal.ofBits .f32 0x3727C5AC#32

/-- The row length `2048` as the extended real its pattern denotes. -/
def lenE : EReal := Ideal.ofBits .f32 0x45000000#32

/-- The mean of a row. -/
def meanE (X : Fin 2048 → EReal) : EReal := Ideal.div (∑ h, X h) lenE

/-- The value before softplus with the affine part of LayerNorm folded through the linear layer. -/
def preFolded (X Γ B Wc : Fin 2048 → EReal) (bc : EReal) : EReal :=
  Ideal.rsqrt (Ideal.div (∑ h, X h * X h) lenE - meanE X * meanE X + epsE)
      * ((∑ h, X h * (Wc h * Γ h)) - meanE X * ∑ h, Wc h * Γ h)
    + (bc + ∑ h, B h * Wc h)

/-- The value before softplus as LayerNorm followed by the linear layer. -/
def preDirect (X Γ B Wc : Fin 2048 → EReal) (bc : EReal) : EReal :=
  (∑ h, ((X h - meanE X) * Ideal.rsqrt (Ideal.div (∑ k, (X k - meanE X) * (X k - meanE X)) lenE + epsE) * Γ h + B h) * Wc h)
    + bc

/-- Softplus in its overflow-safe spelling `max y 0 + log (1 + exp (−|y|))`, with `|y| = max y (−y)`. -/
def softplus (y : EReal) : EReal := max y 0 + Ideal.log1p (Ideal.exp (-(max y (-y))))

/-- The result at row `n`, column `c`, from the argument arrays: softplus of the folded value of row `n` of `x`
    against row `c` of `W`. -/
def outAt (x : (⟨2, ![65536, 2048]⟩ : Shape).Idx → EReal) (γ β : (⟨1, ![2048]⟩ : Shape).Idx → EReal)
    (W : (⟨2, ![64, 2048]⟩ : Shape).Idx → EReal) (b : (⟨1, ![64]⟩ : Shape).Idx → EReal) (n : Fin 65536) (c : Fin 64) : EReal :=
  softplus (preFolded (fun h => x (ix2 n h)) (fun h => γ (ix1 h)) (fun h => β (ix1 h)) (fun h => W (ix2 c h)) (b (ix1 c)))

/-- The result array. -/
def out (x : (⟨2, ![65536, 2048]⟩ : Shape).Idx → EReal) (γ β : (⟨1, ![2048]⟩ : Shape).Idx → EReal)
    (W : (⟨2, ![64, 2048]⟩ : Shape).Idx → EReal) (b : (⟨1, ![64]⟩ : Shape).Idx → EReal) :
    (⟨2, ![65536, 64]⟩ : Shape).Idx → EReal :=
  fun i => outAt x γ β W b (i 0) (i 1)

/-- The same with the direct spelling before softplus: what the reference computes. -/
def outAtDirect (x : (⟨2, ![65536, 2048]⟩ : Shape).Idx → EReal) (γ β : (⟨1, ![2048]⟩ : Shape).Idx → EReal)
    (W : (⟨2, ![64, 2048]⟩ : Shape).Idx → EReal) (b : (⟨1, ![64]⟩ : Shape).Idx → EReal) (n : Fin 65536) (c : Fin 64) : EReal :=
  softplus (preDirect (fun h => x (ix2 n h)) (fun h => γ (ix1 h)) (fun h => β (ix1 h)) (fun h => W (ix2 c h)) (b (ix1 c)))

end Cert.Readout

end
-- ==== Proof.Algebra.lean ====
/-
  The law that joins the two spellings of the value before softplus (Spec.lean), for rows of real numbers.

  Over the reals, with `μ = (∑ X) / 2048`:
  * the variance: `mean ((X − μ)²) = mean (X²) − μ²` (expand the square; `∑ X = 2048 · μ`);
  * the fold: `∑ ((X − μ) · s · γ + β) · W + b = s · (∑ X · (W · γ) − μ · ∑ W · γ) + (b + ∑ β · W)`
    (distribute the product over the sum, term by term).
  Both sides of the fold use the same scale `s = rsqrt (variance + ε)` once the variances agree, and the
  variance is a mean of squares, so `variance + ε > 0` and the scale is a real number.  A finite sum, a product,
  a difference of real numbers read in the extended reals are the real sum, product, difference, so the
  identity over the reals is the identity of the two extended-real expressions.
-/
import proofs.«163319_j9096740733004_2_alg».proof.Proof.Spec

noncomputable section

namespace Cert.Readout

open Idealize.ShloMosaic

/-- A finite sum of real numbers, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row length's pattern denotes the real number 2048. -/
theorem lenE_eq : lenE = ((2048 : ℝ) : EReal) := by
  unfold lenE
  simp [Ideal.ofBits, Ideal.ieee, -EReal.coe_mul]
  norm_num

/-- Division by the row length is multiplication by `1/2048`. -/
theorem div_len (a : ℝ) : Ideal.div (a : EReal) lenE = ((a * (1 / 2048) : ℝ) : EReal) := by
  rw [lenE_eq, Ideal.div_coe (by norm_num), ← EReal.coe_mul]

/-- The reciprocal square root of a positive real is a real. -/
theorem rsqrt_of_pos {r : ℝ} (h : 0 < r) : Ideal.rsqrt (r : EReal) = (((Real.sqrt r)⁻¹ : ℝ) : EReal) := by
  rw [Ideal.rsqrt_coe, if_neg (not_lt.mpr h.le), if_neg h.ne']

/-- The variance of a real row: the mean of the squared deviations is the mean of the squares less the squared mean. -/
theorem var_identity (x : Fin 2048 → ℝ) (mu : ℝ) (hmu : mu = (∑ h, x h) * (1 / 2048)) :
    (∑ k, (x k - mu) * (x k - mu)) * (1 / 2048) = (∑ h, x h * x h) * (1 / 2048) - mu * mu := by
  have hS : (∑ h, x h) = 2048 * mu := by rw [hmu]; ring
  have e : ∑ k, (x k - mu) * (x k - mu) = (∑ k, x k * x k) - 2 * mu * (∑ k, x k) + 2048 * (mu * mu) := by
    have hk : ∀ k, (x k - mu) * (x k - mu) = x k * x k - 2 * mu * x k + mu * mu := fun k => by ring
    simp only [hk, Finset.sum_add_distrib, Finset.sum_sub_distrib, ← Finset.mul_sum, Finset.sum_const,
      Finset.card_univ, Fintype.card_fin, nsmul_eq_mul]
    push_cast
    ring
  rw [e, hS]
  ring

/-- The fold over the reals: the contraction of the normalised row is the scale times the folded contraction. -/
theorem fold_identity (x g β w : Fin 2048 → ℝ) (b mu s : ℝ) :
    s * ((∑ h, x h * (w h * g h)) - mu * ∑ h, w h * g h) + (b + ∑ h, β h * w h)
      = (∑ h, ((x h - mu) * s * g h + β h) * w h) + b := by
  have e : ∑ h, ((x h - mu) * s * g h + β h) * w h
      = s * ((∑ h, x h * (w h * g h)) - mu * ∑ h, w h * g h) + ∑ h, β h * w h := by
    rw [Finset.mul_sum, ← Finset.sum_sub_distrib, Finset.mul_sum, ← Finset.sum_add_distrib]
    exact Finset.sum_congr rfl fun h _ => by ring
  rw [e]
  ring

/-- The guard's pattern denotes a positive real number. -/
theorem epsE_pos : ∃ e : ℝ, 0 < e ∧ epsE = (e : EReal) := by
  unfold epsE
  simp [Ideal.ofBits, Ideal.ieee, -EReal.coe_mul]

/-- THE LAW: for rows of real numbers the folded and the direct spellings of the value before softplus agree. -/
theorem preFolded_eq_preDirect (x g β w : Fin 2048 → ℝ) (b : ℝ) :
    preFolded (fun h => ((x h : ℝ) : EReal)) (fun h => ((g h : ℝ) : EReal)) (fun h => ((β h : ℝ) : EReal))
        (fun h => ((w h : ℝ) : EReal)) ((b : ℝ) : EReal)
      = preDirect (fun h => ((x h : ℝ) : EReal)) (fun h => ((g h : ℝ) : EReal)) (fun h => ((β h : ℝ) : EReal))
        (fun h => ((w h : ℝ) : EReal)) ((b : ℝ) : EReal) := by
  obtain ⟨e, he, hE⟩ := epsE_pos
  have hmean : meanE (fun h => ((x h : ℝ) : EReal)) = (((∑ h, x h) * (1 / 2048) : ℝ) : EReal) := by
    unfold meanE
    rw [← coe_sum, div_len]
  generalize hmu : (∑ h, x h) * (1 / 2048) = mu at hmean
  have hvK : Ideal.div (∑ h, ((x h : ℝ) : EReal) * ((x h : ℝ) : EReal)) lenE
      = (((∑ h, x h * x h) * (1 / 2048) : ℝ) : EReal) := by
    simp only [← EReal.coe_mul]
    rw [← coe_sum, div_len]
  have hvR : Ideal.div (∑ k, (((x k : ℝ) : EReal) - (mu : EReal)) * (((x k : ℝ) : EReal) - (mu : EReal))) lenE
      = (((∑ k, (x k - mu) * (x k - mu)) * (1 / 2048) : ℝ) : EReal) := by
    simp only [← EReal.coe_sub, ← EReal.coe_mul]
    rw [← coe_sum, div_len]
  have hvar := var_identity x mu hmu.symm
  have hrpos : 0 < (∑ h, x h * x h) * (1 / 2048) - mu * mu + e := by
    have h0 : 0 ≤ (∑ k, (x k - mu) * (x k - mu)) * (1 / 2048) :=
      mul_nonneg (Finset.sum_nonneg fun k _ => mul_self_nonneg _) (by norm_num)
    rw [← hvar]
    linarith
  have hK : Ideal.div (∑ h, ((x h : ℝ) : EReal) * ((x h : ℝ) : EReal)) lenE - (mu : EReal) * (mu : EReal) + epsE
      = (((∑ h, x h * x h) * (1 / 2048) - mu * mu + e : ℝ) : EReal) := by
    rw [hvK, hE, ← EReal.coe_mul, ← EReal.coe_sub, ← EReal.coe_add]
  have hR : Ideal.div (∑ k, (((x k : ℝ) : EReal) - (mu : EReal)) * (((x k : ℝ) : EReal) - (mu : EReal))) lenE + epsE
      = (((∑ h, x h * x h) * (1 / 2048) - mu * mu + e : ℝ) : EReal) := by
    rw [hvR, hE, ← EReal.coe_add, hvar]
  unfold preFolded preDirect
  simp only [hmean]
  rw [hK, hR, rsqrt_of_pos hrpos]
  simp only [← EReal.coe_mul, ← EReal.coe_sub, ← EReal.coe_add, ← coe_sum]
  exact congrArg _ (fold_identity x g β w b mu _)

end Cert.Readout

end
-- ==== Proof.Finite.lean ====
/-
  Finite inputs are real numbers.

  The precondition computes, for each of the five float arguments, the conjunction over all entries of the
  comparison |x| < +∞ (the pattern 0x7F800000 denotes +∞), and conjoins the five results. When the result is the
  word 1, every conjunct is 1, so every entry of every argument has absolute value below +∞. On the extended
  reals |x| = max x (-x): it is +∞ at both infinities, so an extended real whose absolute value is below +∞ is
  neither of them, that is, it is a real number.
-/
import proofs.«163319_j9096740733004_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Readout

open Idealize.ShloMosaic Idealize.ShloMosaic.ValueIdx Cert.Pre_finite_inputs

/-- The rank-0 shape has exactly one index. -/
instance subsingleton_scalar_idx : Subsingleton S_.Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- An extended real whose absolute value max x (-x) is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One lane of the comparison |x| < +∞ being the word 1 says that the entry is a real number. -/
theorem real_of_lane {S : Shape} (x : FVec Ideal S .f32) (hb : S_.BroadcastsInDim S (![] : Fin 0 → Fin S.rank)) (i : S.Idx)
    (h : cmpf .olt (Host.absf x) (broadcastInDim S ![] hb (constant (F := Ideal) S_ .f32 0x7F800000#32)) i = 1#1) :
    ∃ r : ℝ, x i = (r : EReal) := by
  have e : cmpf .olt (Host.absf x) (broadcastInDim S ![] hb (constant (F := Ideal) S_ .f32 0x7F800000#32)) i
      = BitVec.ofBool (decide (max (x i) (-(x i)) < Ideal.ofBits .f32 0x7F800000#32)) := rfl
  rw [e, ofBits_inf] at h
  refine real_of_abs_lt_top (x i) ?_
  by_contra hn
  simp [hn] at h

variable [Cert.Pre_finite_inputs.Facts]

/-- THE PRECONDITION DECODED: when the precondition answers the word 1, every entry of every float argument is a real number. -/
theorem real_of_pre (x0 : FVec Ideal Cert.Pre_finite_inputs.S65536x2048 .f32) (x1 x2 : FVec Ideal Cert.Pre_finite_inputs.S2048 .f32)
    (x3 : FVec Ideal Cert.Pre_finite_inputs.S64x2048 .f32) (x4 : FVec Ideal Cert.Pre_finite_inputs.S64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h ix0
  dsimp only [Cert.Pre_finite_inputs.fn, Cert.Pre_finite_inputs.fn_part1, andi] at e
  obtain ⟨⟨⟨⟨e0, e1⟩, e2⟩, e3⟩, e4⟩ :=
    (IntOp.andi_eq_one.1 e).imp_left fun e => (IntOp.andi_eq_one.1 e).imp_left fun e =>
      (IntOp.andi_eq_one.1 e).imp_left fun e => IntOp.andi_eq_one.1 e
  exact ⟨fun i => real_of_lane x0 _ i (Host.reduce_andi_all _ _ _ _ _ e0 i),
    fun i => real_of_lane x1 _ i (Host.reduce_andi_all _ _ _ _ _ e1 i),
    fun i => real_of_lane x2 _ i (Host.reduce_andi_all _ _ _ _ _ e2 i),
    fun i => real_of_lane x3 _ i (Host.reduce_andi_all _ _ _ _ _ e3 i),
    fun i => real_of_lane x4 _ i (Host.reduce_andi_all _ _ _ _ _ e4 i)⟩

end Cert.Readout

end
-- ==== Proof.RefValue.lean ====
/-
  The reference computes the specified function.

  The reference program is read one stage at a time at a row n, a position h of the row and a column c:

  * the MEAN of row n: the row's sum (started at the zero constant) divided by the row length 2048;
  * the CENTRED entry: the entry minus the mean, the mean spread along the row;
  * the VARIANCE: the sum of the squared centred entries divided by the row length;
  * the SCALE: the reciprocal square root of the variance plus the guard;
  * the NORMALISED ROW: centred entry times scale times the gain, plus the shift;
  * the CONTRACTION: the sum over the row of normalised entry times the weight of column c, plus that column's bias —
    the direct spelling of the value before softplus;
  * SOFTPLUS: the comparison of a value with itself for difference is never true on the extended reals, so the
    selection takes the overflow-safe branch, the maximum with zero plus log (1 + exp (−|y|)); subtracting the zero
    constant and adding it change nothing.
-/
import proofs.«163319_j9096740733004_2_alg».proof.Proof.Gen.ReferenceIdeal.Read
import proofs.«163319_j9096740733004_2_alg».proof.Proof.Spec
import Idealize.ShloMosaic.PureOps.Ideal.Laws
import Idealize.ShloMosaic.Lib.ValueIdx
import Idealize.ShloMosaic.Lib.Pipeline.Value

noncomputable section

namespace Cert.Readout

open Cert.ReferenceIdeal Cert.ReferenceIdeal.Gen Cert.ReferenceIdeal.Read Idealize.ShloMosaic Idealize.ShloMosaic.ValueIdx

/-! ## The composed index maps, by coordinates -/

/-- Position k of row n, reached through the one-column array of row sums. -/
theorem idx_rowsum (n : Fin 65536) (z : Fin 1) (k : Fin 2048) :
    idx_main_v0 (idx_main_v1 (ix2 n z)) k = ix2 n k :=
  funext fun a => Fin.ext (by match a with | ⟨0, _⟩ => rfl | ⟨1, _⟩ => rfl)

/-- The same for the row sums of squares. -/
theorem idx_rowsq (n : Fin 65536) (z : Fin 1) (k : Fin 2048) :
    idx_main_v7 (idx_main_v8 (ix2 n z)) k = ix2 n k :=
  funext fun a => Fin.ext (by match a with | ⟨0, _⟩ => rfl | ⟨1, _⟩ => rfl)

/-- A per-row quantity spread along the row is read at the row's single column. -/
theorem idx_spread4 (n : Fin 65536) (h : Fin 2048) : idx_main_v4 (ix2 n h) = ix2 n (0 : Fin 1) :=
  funext fun a => Fin.ext (by match a with | ⟨0, _⟩ => rfl | ⟨1, _⟩ => rfl)
theorem idx_spread11 (n : Fin 65536) (h : Fin 2048) : idx_main_v11 (ix2 n h) = ix2 n (0 : Fin 1) :=
  funext fun a => Fin.ext (by match a with | ⟨0, _⟩ => rfl | ⟨1, _⟩ => rfl)
theorem idx_spread16 (n : Fin 65536) (h : Fin 2048) : idx_main_v16 (ix2 n h) = ix2 n (0 : Fin 1) :=
  funext fun a => Fin.ext (by match a with | ⟨0, _⟩ => rfl | ⟨1, _⟩ => rfl)

/-- The gain and the shift, spread over the rows, are read at the position in the row. -/
theorem idx_gain (n : Fin 65536) (h : Fin 2048) : idx_main_v18 (idx_main_v19 (ix2 n h)) = ix1 h :=
  funext fun a => Fin.ext (by match a with | ⟨0, _⟩ => rfl)
theorem idx_shift (n : Fin 65536) (h : Fin 2048) : idx_main_v21 (idx_main_v22 (ix2 n h)) = ix1 h :=
  funext fun a => Fin.ext (by match a with | ⟨0, _⟩ => rfl)

/-- The contraction pairs position k of row n with position k of weight row c. -/
theorem idx_lhs (n : Fin 65536) (c : Fin 64) (k : Fin 2048) : lidx_main_v24 (ix2 n c) k = ix2 n k :=
  funext fun a => Fin.ext (by match a with | ⟨0, _⟩ => rfl | ⟨1, _⟩ => rfl)
theorem idx_rhs (n : Fin 65536) (c : Fin 64) (k : Fin 2048) : ridx_main_v24 (ix2 n c) k = ix2 c k :=
  funext fun a => Fin.ext (by match a with | ⟨0, _⟩ => rfl | ⟨1, _⟩ => rfl)

/-- The bias, spread over the rows, is read at the column. -/
theorem idx_bias (n : Fin 65536) (c : Fin 64) : idx_main_v25 (idx_main_v26 (ix2 n c)) = ix1 c :=
  funext fun a => Fin.ext (by match a with | ⟨0, _⟩ => rfl)

/-! ## The stages -/

/-- The mean of row n. -/
theorem mean_apply (x0 : FVec Ideal S65536x2048 .f32) (n : Fin 65536) (z : Fin 1) :
    val_main_v3 (F := Ideal) x0 (ix2 n z) = meanE (fun h => x0 (ix2 n h)) := by
  rw [val_main_v3_apply, val_main_v1_apply, val_main_v2_apply, val_main_cst_0_apply, val_main_v0_apply,
    val_main_cst_apply]
  simp only [Ideal.hostDivf_def, Ideal.ofBits_def, Ideal.ofBits_zero_f32, zero_add, idx_rowsum]
  rfl

/-- The centred entry, as the variance reads it. -/
theorem centred_apply (x0 : FVec Ideal S65536x2048 .f32) (n : Fin 65536) (h : Fin 2048) :
    val_main_v5 (F := Ideal) x0 (ix2 n h) = x0 (ix2 n h) - meanE (fun h => x0 (ix2 n h)) := by
  rw [val_main_v5_apply, val_main_v4_apply, idx_spread4, mean_apply]
  rfl

/-- The variance of row n: the mean of the squared centred entries. -/
theorem var_apply (x0 : FVec Ideal S65536x2048 .f32) (n : Fin 65536) (z : Fin 1) :
    val_main_v10 (F := Ideal) x0 (ix2 n z)
      = Ideal.div (∑ k, (x0 (ix2 n k) - meanE (fun h => x0 (ix2 n h))) * (x0 (ix2 n k) - meanE (fun h => x0 (ix2 n h)))) lenE := by
  rw [val_main_v10_apply, val_main_v8_apply, val_main_v9_apply, val_main_cst_2_apply, val_main_v7_apply,
    val_main_cst_1_apply]
  simp only [Ideal.hostDivf_def, Ideal.ofBits_def, Ideal.ofBits_zero_f32, zero_add, idx_rowsq, val_main_v6_apply,
    centred_apply, Ideal.mulf_def]
  rfl

/-- The scale of row n: the reciprocal square root of the guarded variance. -/
theorem scale_apply (x0 : FVec Ideal S65536x2048 .f32) (n : Fin 65536) (z : Fin 1) :
    val_main_v15 (F := Ideal) x0 (ix2 n z)
      = Ideal.rsqrt (Ideal.div (∑ k, (x0 (ix2 n k) - meanE (fun h => x0 (ix2 n h))) * (x0 (ix2 n k) - meanE (fun h => x0 (ix2 n h)))) lenE + epsE) := by
  rw [val_main_v15_apply, val_main_v14_apply, val_main_v13_apply, val_main_cst_3_apply, var_apply]
  rfl

/-- The normalised row at position h: centred entry times scale times gain, plus shift. -/
theorem norm_apply (x0 : FVec Ideal S65536x2048 .f32) (x1 x2 : FVec Ideal S2048 .f32) (n : Fin 65536) (h : Fin 2048) :
    val_main_v23 (F := Ideal) x0 x1 x2 (ix2 n h)
      = (x0 (ix2 n h) - meanE (fun h => x0 (ix2 n h)))
          * Ideal.rsqrt (Ideal.div (∑ k, (x0 (ix2 n k) - meanE (fun h => x0 (ix2 n h))) * (x0 (ix2 n k) - meanE (fun h => x0 (ix2 n h)))) lenE + epsE)
          * x1 (ix1 h) + x2 (ix1 h) := by
  rw [val_main_v23_apply, val_main_v20_apply, val_main_v17_apply, val_main_v12_apply, val_main_v11_apply, idx_spread11,
    mean_apply, val_main_v16_apply, idx_spread16, scale_apply, val_main_v19_apply, val_main_v18_apply, idx_gain,
    val_main_v22_apply, val_main_v21_apply, idx_shift]
  rfl

/-- The value before softplus: the contraction of the normalised row with weight row c, plus the bias of column c. -/
theorem pre_apply (x0 : FVec Ideal S65536x2048 .f32) (x1 x2 : FVec Ideal S2048 .f32) (x3 : FVec Ideal S64x2048 .f32)
    (x4 : FVec Ideal S64 .f32) (n : Fin 65536) (c : Fin 64) :
    val_main_v27 (F := Ideal) x0 x1 x2 x3 x4 (ix2 n c)
      = preDirect (fun h => x0 (ix2 n h)) (fun h => x1 (ix1 h)) (fun h => x2 (ix1 h)) (fun h => x3 (ix2 c h)) (x4 (ix1 c)) := by
  rw [val_main_v27_apply, val_main_v24_apply, val_main_v26_apply, val_main_v25_apply, idx_bias]
  simp only [idx_lhs, idx_rhs, norm_apply, Ideal.addf_def]
  rfl

/-- No extended real differs from itself: the comparison for difference of a value with itself is the false bit. -/
theorem cmp_une_self (a : EReal) : Ideal.cmp .une a a = 0#1 := by
  unfold Ideal.cmp
  simp

/-- The reference's result at row n, column c is softplus of the direct value. -/
theorem ref_apply (x0 : FVec Ideal Cert.ReferenceIdeal.S65536x2048 .f32) (x1 x2 : FVec Ideal Cert.ReferenceIdeal.S2048 .f32)
    (x3 : FVec Ideal Cert.ReferenceIdeal.S64x2048 .f32) (x4 : FVec Ideal Cert.ReferenceIdeal.S64 .f32) (n : Fin 65536) (c : Fin 64) :
    Cert.ReferenceIdeal.Read.val_main_v28 (F := Ideal) x0 x1 x2 x3 x4 (ValueIdx.ix2 n c) = Cert.Readout.outAtDirect x0 x1 x2 x3 x4 n c := by
  rw [val_main_v28_apply, val_main_call0_v4_apply, Ideal.cmpf_def, cmp_une_self, select_zero, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_cst_apply, pre_apply]
  simp only [Ideal.addf_def, Ideal.subf_def, Ideal.maximumf_def, Ideal.hostUnary_log1p_def, Ideal.hostUnary_exp_def,
    Ideal.hostNegf_def, Ideal.negf_def, Ideal.hostAbsf_def, Ideal.absf_def, Ideal.ofBits_def, Ideal.ofBits_zero_f32,
    sub_zero]
  rfl

end Cert.Readout

end
-- ==== Proof.Bridge.lean ====
/-
  Under the precondition the reference's result is the specification's function.

  The reference's last stage, at row `n` and column `q`, is softplus of the direct value (RefValue.lean); the
  precondition makes every entry of every argument a real number (Finite.lean); for rows of real numbers the direct
  value is the folded value (Algebra.lean).
-/
import proofs.«163319_j9096740733004_2_alg».proof.Proof.Gen.Pre_finite_inputs
import proofs.«163319_j9096740733004_2_alg».proof.Proof.Algebra
import proofs.«163319_j9096740733004_2_alg».proof.Proof.Finite
import proofs.«163319_j9096740733004_2_alg».proof.Proof.RefValue

noncomputable section

namespace Cert.Readout

open Idealize.ShloMosaic Idealize.ShloMosaic.ValueIdx

theorem ref_eq_out (x0 : FVec Ideal Cert.ReferenceIdeal.S65536x2048 .f32) (x1 x2 : FVec Ideal Cert.ReferenceIdeal.S2048 .f32)
    (x3 : FVec Ideal Cert.ReferenceIdeal.S64x2048 .f32) (x4 : FVec Ideal Cert.ReferenceIdeal.S64 .f32)
    (hpre : Cert.Pre_finite_inputs.fn (F := Ideal) x0 x1 x2 x3 x4 = fun _ => 1#1) :
    Cert.ReferenceIdeal.Read.val_main_v28 (F := Ideal) x0 x1 x2 x3 x4 = out x0 x1 x2 x3 x4 := by
  obtain ⟨h0, h1, h2, h3, h4⟩ := real_of_pre x0 x1 x2 x3 x4 hpre
  choose r0 e0 using h0
  choose r1 e1 using h1
  choose r2 e2 using h2
  choose r3 e3 using h3
  choose r4 e4 using h4
  funext i
  obtain ⟨n, q, rfl⟩ : ∃ (n : Fin 65536) (q : Fin 64), i = ix2 n q := ⟨i 0, i 1, eq_ix2 i⟩
  rw [ref_apply]
  show outAtDirect x0 x1 x2 x3 x4 n q = outAt x0 x1 x2 x3 x4 n q
  unfold outAtDirect outAt
  refine congrArg softplus ?_
  simp only [e0, e1, e2, e3, e4]
  exact (preFolded_eq_preDirect (fun h => r0 (ix2 n h)) (fun h => r1 (ix1 h)) (fun h => r2 (ix1 h))
    (fun h => r3 (ix2 q h)) (r4 (ix1 q))).symm

end Cert.Readout

end
-- ==== Proof.KernelPoint.lean ====
/-
  What the kernel's body stores at one position of its output block, as a function of the blocks it loads.

  The body loads a block `x0` of 1024 rows of the input, the whole folded weight matrix `x1` (2048 × 64), and the two
  folded vectors `x2`, `x3` (64 entries each).  At row `p` and column `q` of the block it stores softplus of

    `rsqrt (mean (X²) − μ² + ε) · (∑ₕ X h · x1 (h, q) − μ · x2 q) + x3 q`,   `X = ` row `p` of `x0`, `μ = mean X`:

  the two lane sums are sums over the row, the keep-dims column `[1024] → [1024, 1] → [1024, 64]` reads the row's
  entry, the row vectors `[64] → [1, 64] → [1024, 64]` read the column's entry, the matrix product into a zero
  accumulator is the sum over the contracted axis, and a change of float format is the identity.  The softplus tail
  takes `max y 0 + log1p (exp (0 − |y − 0|))`; its guard compares `y − 0` with itself for inequality, which never holds.
-/
import proofs.«163319_j9096740733004_2_alg».proof.Proof.Gen.KernelIdeal.Skeleton
import proofs.«163319_j9096740733004_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Readout

open Idealize.ShloMosaic Idealize.ShloMosaic.ValueIdx Cert.KernelIdeal Cert.KernelIdeal.Gen

/-! ## Layout steps read at a position -/

/-- A vector `[a]` cast to a column `[a, 1]` reads, at `(p, u)`, the vector at `p`. -/
theorem cast_col_apply {a : ℕ} {α : Type} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- A column `[a, 1]` broadcast to `[a, b]` reads, at `(p, c)`, the column at `p`. -/
theorem bcast_col_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum over the lanes of a `[1024, 2048]` block, at row `p`, is the sum of the row. -/
theorem rowsum_apply (v : FVec Ideal S1024x2048 .f32) (hr : S1024x2048.Reduces [1] S1024) (hφ : FTy.f32 = FTy.f32 ∨ FTy.f32 = FTy.bf16)
    (hacc : (0x00000000#32 : BitVec 32) = 0x00000000#32) (p : Fin 1024) :
    multiReduction .add [1] S1024 v 0x00000000#32 hr hφ hacc (ix1 p) = ∑ k : Fin 2048, v (ix2 p k) := by
  refine (Ideal.multiReduction_add_single v 0x00000000#32 hr hφ hacc (ix1 p)).trans ?_
  exact Finset.sum_congr rfl fun k _ => congrArg v (funext fun a => Fin.ext (by
    match a with
    | ⟨0, _⟩ => rfl
    | ⟨1, _⟩ => rfl))

local notation "DD" => dot_S1024x2048_S2048x64_S1024x64_1_0_0_1_n_n

theorem dot_lhs0 (i : S1024x64.Idx) (k : (DD).contr.Idx) : ((DD).lhsIdx i k 0).val = (i 0).val := by
  unfold DotDims.lhsIdx
  rw [dif_neg (show ¬(0 : Fin S1024x2048.rank) ∈ (DD).lhsBatch by decide), dif_pos (show (0 : Fin S1024x2048.rank) ∈ (DD).lhsNonContracting by decide)]
  rfl

theorem dot_rhs1 (i : S1024x64.Idx) (k : (DD).contr.Idx) : ((DD).rhsIdx i k 1).val = (i 1).val := by
  unfold DotDims.rhsIdx
  rw [dif_neg (show ¬(1 : Fin S2048x64.rank) ∈ (DD).rhsBatch by decide), dif_pos (show (1 : Fin S2048x64.rank) ∈ (DD).rhsNonContracting by decide)]
  rfl

/-- The matrix product of a `[1024, 2048]` block with a `[2048, 64]` matrix into a zero accumulator, at `(p, q)`:
    the sum over the contracted axis. -/
theorem dot_apply (l : FVec Ideal S1024x2048 .bf16) (r : FVec Ideal S2048x64 .bf16) (p : Fin 1024) (q : Fin 64) :
    matmul (DD) none l r (constant S1024x64 .f32 0x00000000#32) (ix2 p q) = ∑ k : Fin 2048, l (ix2 p k) * r (ix2 k q) := by
  simp only [matmul]
  rw [Ideal.matmul_constant_zero_apply, ← Equiv.sum_comp (ValueIdx.contrEquiv1 (DD) 2048 rfl rfl).symm]
  refine Finset.sum_congr rfl fun k _ => ?_
  have hk := ValueIdx.contrEquiv1_symm_val (DD) 2048 rfl rfl k
  have el : (DD).lhsIdx (ix2 p q) ((ValueIdx.contrEquiv1 (DD) 2048 rfl rfl).symm k) = ix2 p k := funext fun a => Fin.ext (by
    match a with
    | ⟨0, _⟩ => exact dot_lhs0 _ _
    | ⟨1, _⟩ => exact ((DD).lhsIdx_val_of_single rfl _ _).trans hk)
  have er : (DD).rhsIdx (ix2 p q) ((ValueIdx.contrEquiv1 (DD) 2048 rfl rfl).symm k) = ix2 k q := funext fun a => Fin.ext (by
    match a with
    | ⟨0, _⟩ => exact ((DD).rhsIdx_val_of_single rfl _ _).trans hk
    | ⟨1, _⟩ => exact dot_rhs1 _ _)
  rw [el, er]

/-! ## Pointwise operations read at a position -/

theorem rsqrt_apply {s : Shape} {φ : FTy} (v : FVec Ideal s φ) (i : s.Idx) : rsqrt v i = Ideal.rsqrt (v i) := rfl
theorem exp_apply {s : Shape} {φ : FTy} (v : FVec Ideal s φ) (i : s.Idx) : exp v i = Ideal.exp (v i) := rfl
theorem log1p_apply {s : Shape} {φ : FTy} (v : FVec Ideal s φ) (i : s.Idx) : log1p v i = Ideal.log1p (v i) := rfl
theorem absf_apply {s : Shape} {φ : FTy} (v : FVec Ideal s φ) (i : s.Idx) : absf v i = max (v i) (-(v i)) := rfl

/-! ## The value before softplus at a position of the block -/

/-- The folded value with its three folded operands given: the weight column `Wt`, the scalar `s` that multiplies
    the mean, the scalar `bb` added last. -/
def preBlock (X Wt : Fin 2048 → EReal) (s bb : EReal) : EReal :=
  Ideal.rsqrt (Ideal.div (∑ h, X h * X h) lenE - meanE X * meanE X + epsE) * ((∑ h, X h * Wt h) - meanE X * s) + bb

theorem preFolded_eq_preBlock (X Γ B Wc : Fin 2048 → EReal) (bc : EReal) :
    preFolded X Γ B Wc bc = preBlock X (fun h => Wc h * Γ h) (∑ h, Wc h * Γ h) (bc + ∑ h, B h * Wc h) := rfl

theorem body_pre_apply (x0 : Vec Ideal S1024x2048 .f32) (x1 : Vec Ideal S2048x64 .bf16) (x2 x3 : Vec Ideal S64 .f32)
    (p : Fin 1024) (q : Fin 64) :
    k0_pay2 x0 x1 x2 x3 (ix2 p q)
      = preBlock (fun h => x0 (ix2 p h)) (fun h => x1 (ix2 h q)) (x2 (ix1 q)) (x3 (ix1 q)) := by
  unfold k0_pay2
  simp only [addf_apply, mulf_apply, subf_apply, divf_apply, broadcast_apply, bcast_col_apply, broadcastTo_1b_ab_apply,
    shapeCast_a_1a_apply, cast_col_apply, shapeCast_self, dot_apply, truncf_apply, rsqrt_apply, Ideal.ofBits_def]
  have hs : ∀ v : FVec Ideal S1024x2048 .f32,
      multiReduction FKind.add [1] S1024 v (0#32) Gen.reduces_S1024x2048_S1024 k0_pay2._proof_2 k0_pay2._proof_3 (ix1 p)
        = ∑ k : Fin 2048, v (ix2 p k) := fun v => rowsum_apply v _ _ _ p
  simp only [hs, mulf_apply]
  rfl

/-! ## The stored value at a position of the block -/

/-- No extended real differs from itself. -/
theorem cmp_one_self (a : EReal) : Ideal.cmp .one a a = 0#1 := by
  unfold Ideal.cmp
  simp

/-- What the body stores at `(p, q)`: softplus of the folded value there.  The guard of the softplus tail is never
    taken, subtracting zero changes nothing, and `0 − |y|` is `−|y|`. -/
theorem body_out_apply (x0 : Vec Ideal S1024x2048 .f32) (x1 : Vec Ideal S2048x64 .bf16) (x2 x3 : Vec Ideal S64 .f32)
    (p : Fin 1024) (q : Fin 64) :
    k0_pay1 (k0_pay3 x0 x1 x2 x3) (k0_pay5 x0 x1 x2 x3) (k0_pay6 x0 x1 x2 x3) (k0_pay7 x0 x1 x2 x3) (ix2 p q)
      = softplus (preBlock (fun h => x0 (ix2 p h)) (fun h => x1 (ix2 h q)) (x2 (ix1 q)) (x3 (ix1 q))) := by
  unfold k0_pay1 k0_pay3 k0_pay5 k0_pay6 k0_pay7 k0_pay4
  simp only [select_apply, cmpf_apply, addf_apply, subf_apply, maximumf_apply, broadcast_apply, absf_apply, exp_apply,
    log1p_apply, body_pre_apply, Ideal.cmpf_def, cmp_one_self, select_zero, Ideal.ofBits_def, Ideal.ofBits_zero_f32,
    sub_zero, zero_sub]
  rfl

end Cert.Readout

end
-- ==== Proof.HostPrefix.lean ====
/-
  What the host operations before the kernel call leave in the three operands they compute.

  Write a1 (the scale, 2048 entries), a2 (the shift, 2048 entries), a3 (the 64 × 2048 weight matrix) and a4 (the bias,
  64 entries) for the argument arrays. Before the call the host computes
    • the scaled weights a3[q, h] · a1[h], transposed to 2048 × 64 and converted to the narrow format, which on the
      extended reals is the identity: entry (h, q) is a3[q, h] · a1[h];
    • the row sums of the scaled weights from the start value 0: entry q is ∑ h, a3[q, h] · a1[h];
    • the bias plus the row sums of the shifted weights a2[h] · a3[q, h] from the start value 0: entry q is
      a4[q] + ∑ h, a2[h] · a3[q, h].
  Each is read off the term the operations compose: a vector broadcast along the rows reads its own coordinate, a
  transpose swaps the two coordinates, a sum along axis 1 from the start value 0 is the finite sum over that axis.
-/
import proofs.«163319_j9096740733004_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Readout

open Cert.KernelIdeal Cert.KernelIdeal.Gen Idealize.ShloMosaic Idealize.ShloMosaic.TcCoe Idealize.SL.Sem
open Idealize.ShloMosaic.ValueIdx
open scoped BigOperators

/-- A vector of 2048 entries broadcast to one row and then to 64 rows reads, at (q, h), its entry h. -/
theorem bcast_rows_apply (hb : S2048.BroadcastsInDim S1x2048 (![1] : Fin 1 → Fin S1x2048.rank))
    (hb' : S1x2048.BroadcastsInDim S64x2048 (![0, 1] : Fin 2 → Fin S64x2048.rank)) (x : S2048.Idx → EReal) (q : Fin 64) (h : Fin 2048) :
    broadcastInDim S64x2048 ![0, 1] hb' (broadcastInDim S1x2048 ![1] hb x) (ix2 q h) = x (ix1 h) :=
  (broadcastInDim_apply _ hb' _ (ix2 q h) (ix2 (0 : Fin 1) h) (fun a => match a with
    | ⟨0, _⟩ => by show 0 = if (1 : Nat) = 1 then 0 else q.val; rw [if_pos rfl]
    | ⟨1, _⟩ => by show h.val = if (2048 : Nat) = 1 then 0 else h.val; rw [if_neg (by decide)])).trans
  (broadcastInDim_apply _ hb x (ix2 (0 : Fin 1) h) (ix1 h) (fun a => match a with
    | ⟨0, _⟩ => by show h.val = if (2048 : Nat) = 1 then 0 else h.val; rw [if_neg (by decide)]))

/-- The host's sum along axis 1 of a 64 × 2048 array from the start value 0 reads, at q, the sum of row q. -/
theorem host_rowsum_apply (hr : S64x2048.ReducesTo [1] S64) (hn : 0 < S_.numel) (y : S64x2048.Idx → EReal) (q : Fin 64) :
    Host.reduceAdd (F := Ideal) (φ := .f32) y (constant (F := Ideal) S_ .f32 0x00000000#32) hr hn (ix1 q)
      = ∑ h : Fin 2048, y (ix2 q h) := by
  simp only [Host.reduceAdd, Ideal.hostReduceAdd_def]
  rw [Ideal.hostReduceAdd_single hr (by decide)]
  rw [constant_apply, Ideal.ofBits_zero_f32, zero_add]
  exact Finset.sum_congr rfl fun k _ => congrArg y (funext fun a => Fin.ext (by match a with | ⟨0, _⟩ => rfl | ⟨1, _⟩ => rfl))

variable (m : (ℓ : Loc nD τ sig) → Buf (Elt Ideal) ℓ) (c : Dev nD)

/-- The five argument arrays of core c as the launch memory holds them, as functions on their index types. -/
abbrev a0 : S65536x2048.Idx → EReal := m ((c : Thread nD τ).loc main_arg0)
abbrev a1 : S2048.Idx → EReal := m ((c : Thread nD τ).loc main_arg1)
abbrev a2 : S2048.Idx → EReal := m ((c : Thread nD τ).loc main_arg2)
abbrev a3 : S64x2048.Idx → EReal := m ((c : Thread nD τ).loc main_arg3)
abbrev a4 : S64.Idx → EReal := m ((c : Thread nD τ).loc main_arg4)

/-- The transposed, converted scaled weights at (h, q): the weight a3[q, h] times the scale a1[h]. -/
theorem V_weights (h : Fin 2048) (q : Fin 64) :
    @Eq EReal ((Gen.V m c main_v10 : S2048x64.Idx → EReal) (ix2 h q)) (a3 m c (ix2 q h) * a1 m c (ix1 h)) := by
  have e : (Gen.V m c main_v10 : S2048x64.Idx → EReal)
      = truncf (F := Ideal) (φ := .f32) .bf16 (transpose S2048x64 [1, 0]
          (mulf (F := Ideal) (φ := .f32) (a3 m c)
            (broadcastInDim S64x2048 ![0, 1] Facts₀.bcast_S1x2048_S64x2048_0_1
              (broadcastInDim S1x2048 ![1] Facts₀.bcast_S2048_S1x2048_1 (a1 m c))))
          Facts₀.transposes_S64x2048_S2048x64_1_0) Facts₀.bitsLt_bf16_f32 := by
    dsimp only [Gen.V, Gen.hostOps0]; after_results
  rw [e, truncf_apply, transpose_ix2_apply, mulf_apply, bcast_rows_apply]

/-- The row sums of the scaled weights at q: the sum over h of a3[q, h] times a1[h]. -/
theorem V_meanweight (q : Fin 64) :
    @Eq EReal ((Gen.V m c main_v3 : S64.Idx → EReal) (ix1 q)) (∑ h : Fin 2048, a3 m c (ix2 q h) * a1 m c (ix1 h)) := by
  have e : (Gen.V m c main_v3 : S64.Idx → EReal)
      = Host.reduceAdd (F := Ideal) (φ := .f32)
          (mulf (F := Ideal) (φ := .f32) (a3 m c)
            (broadcastInDim S64x2048 ![0, 1] Facts₀.bcast_S1x2048_S64x2048_0_1
              (broadcastInDim S1x2048 ![1] Facts₀.bcast_S2048_S1x2048_1 (a1 m c))))
          (constant (F := Ideal) S_ .f32 0x00000000#32) Facts₀.reducesTo_S64x2048_S64_d1 Facts₀.h_S_ := by
    dsimp only [Gen.V, Gen.hostOps0]; after_results
  rw [e, host_rowsum_apply]
  exact Finset.sum_congr rfl fun h _ => by rw [mulf_apply, bcast_rows_apply]

/-- The bias operand at q: the bias a4[q] plus the sum over h of the shift a2[h] times a3[q, h]. -/
theorem V_bias (q : Fin 64) :
    @Eq EReal ((Gen.V m c main_v8 : S64.Idx → EReal) (ix1 q)) (a4 m c (ix1 q) + ∑ h : Fin 2048, a2 m c (ix1 h) * a3 m c (ix2 q h)) := by
  have e : (Gen.V m c main_v8 : S64.Idx → EReal)
      = addf (F := Ideal) (φ := .f32) (a4 m c)
          (Host.reduceAdd (F := Ideal) (φ := .f32)
            (mulf (F := Ideal) (φ := .f32)
              (broadcastInDim S64x2048 ![0, 1] Facts₀.bcast_S1x2048_S64x2048_0_1
                (broadcastInDim S1x2048 ![1] Facts₀.bcast_S2048_S1x2048_1 (a2 m c)))
              (a3 m c))
            (constant (F := Ideal) S_ .f32 0x00000000#32) Facts₀.reducesTo_S64x2048_S64_d1 Facts₀.h_S_) := by
    dsimp only [Gen.V, Gen.hostOps0]; after_results
  rw [e, addf_apply, host_rowsum_apply]
  exact congrArg (_ + ·) (Finset.sum_congr rfl fun h _ => by rw [mulf_apply, bcast_rows_apply])

end Cert.Readout

end
-- ==== Proof.Cover.lean ====
/-
  The output window's blocks tile the result array, and where each window's block sits.

  The kernel runs over 64 grid points t.  The input's window cuts the [65536, 2048] array into blocks of 1024 whole rows,
  and point t takes block (t, 0): rows 1024·t … 1024·t + 1023.  The weights, the folded column sums and the folded bias
  are each one block, the whole array, at every point.  The output's window cuts the [65536, 64] result into blocks of
  1024 whole rows, point t writes block (t, 0), and every point writes its block back.  So row r of the result lies in
  the block of point r / 1024 and of no other, and the 64 blocks fill the array.

  Inside a block, a coordinate of the array is (block index) × (block size) + 1 × (the coordinate inside the block).
-/
import proofs.«163319_j9096740733004_2_alg».proof.Proof.Gen.KernelIdeal.Value

noncomputable section

namespace Cert.Readout

open Cert.KernelIdeal Cert.KernelIdeal.Gen Idealize.ShloMosaic Idealize.ShloMosaic.TcCoe Idealize.SL.Sem

/-- The block index of every window at every grid point: the input and the output move down the rows with the point,
    the three whole-array windows stay at block 0. -/
theorem block_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 1) = 0
    ∧ win0_4.index t (0 : Fin 2) = t.val ∧ win0_4.index t (1 : Fin 2) = 0 :=
  (by decide +kernel : ∀ t : Fin grid0.N, _)

/-- An index of the result array is in point t's output block iff each coordinate is in the block's range on its axis. -/
theorem mem_out_block (t : Fin cfg0.N) (i : S65536x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v11).slice (win0_4.rect t)).set ↔ _
  rw [View.set_slice_whole, Rect.mem_set_unit]
  exact Iff.rfl

/-- The output blocks fill the result array: row r is in the block of point r / 1024, which is written back. -/
theorem out_cover : ∀ i : S65536x64.Idx, ∃ t : Fin cfg0.N, (cfg0.win 4).flush t = true ∧ i ∈ ((cfg0.win 4).blk t).view.set := by
  intro i
  have hi0 : (i 0).val < 65536 := (i 0).isLt
  have hi1 : (i 1).val < 64 := (i 1).isLt
  obtain ⟨t, ht⟩ : ∃ t : Fin cfg0.N, t.val = (i 0).val / 1024 :=
    ⟨⟨(i 0).val / 1024, by show (i 0).val / 1024 < 64; omega⟩, rfl⟩
  obtain ⟨-, -, -, -, -, -, e0, e1⟩ := block_index_facts t
  refine ⟨t, flush0_4 t, ?_⟩
  rw [mem_out_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 64 ≤ (i 1).val ∧ (i 1).val < win0_4.index t (1 : Fin 2) * 64 + 64; omega

/-- Where position y of point t's output block sits in the result array. -/
theorem out_emb (t : Fin cfg0.N) (y : S1024x64.Idx) :
    ∀ a : Fin 2, ((((cfg0.win 4).blk t).view.emb y) a).val = win0_4.index t a * S1024x64.size a + 1 * (y a).val := by
  intro a
  match a with
  | ⟨0, _⟩ => rfl
  | ⟨1, _⟩ => rfl

/-- Where position y of point t's input block sits in the input array. -/
theorem in_emb (t : Fin cfg0.N) (y : S1024x2048.Idx) :
    ∀ a : Fin 2, ((((cfg0.win 0).blk t).view.emb y) a).val = win0_0.index t a * S1024x2048.size a + 1 * (y a).val := by
  intro a
  match a with
  | ⟨0, _⟩ => rfl
  | ⟨1, _⟩ => rfl

/-- Row y₀ of point t's output block is row 1024·t + y₀ of the result; the column is kept. -/
theorem out_emb_row (t : Fin cfg0.N) (y : S1024x64.Idx) :
    ((((cfg0.win 4).blk t).view.emb y) 0).val = t.val * 1024 + (y 0).val := by
  obtain ⟨-, -, -, -, -, -, e0, -⟩ := block_index_facts t
  have h' : ((((cfg0.win 4).blk t).view.emb y) 0).val = win0_4.index t (0 : Fin 2) * 1024 + 1 * (y 0).val := out_emb t y 0
  omega
theorem out_emb_col (t : Fin cfg0.N) (y : S1024x64.Idx) :
    ((((cfg0.win 4).blk t).view.emb y) 1).val = (y 1).val := by
  obtain ⟨-, -, -, -, -, -, -, e1⟩ := block_index_facts t
  have h' : ((((cfg0.win 4).blk t).view.emb y) 1).val = win0_4.index t (1 : Fin 2) * 64 + 1 * (y 1).val := out_emb t y 1
  omega

/-- Row y₀ of point t's input block is row 1024·t + y₀ of the input; the position in the row is kept. -/
theorem in_emb_row (t : Fin cfg0.N) (y : S1024x2048.Idx) :
    ((((cfg0.win 0).blk t).view.emb y) 0).val = t.val * 1024 + (y 0).val := by
  obtain ⟨e0, -⟩ := block_index_facts t
  have h' : ((((cfg0.win 0).blk t).view.emb y) 0).val = win0_0.index t (0 : Fin 2) * 1024 + 1 * (y 0).val := in_emb t y 0
  omega
theorem in_emb_col (t : Fin cfg0.N) (y : S1024x2048.Idx) :
    ((((cfg0.win 0).blk t).view.emb y) 1).val = (y 1).val := by
  obtain ⟨-, e1, -⟩ := block_index_facts t
  have h' : ((((cfg0.win 0).blk t).view.emb y) 1).val = win0_0.index t (1 : Fin 2) * 2048 + 1 * (y 1).val := in_emb t y 1
  omega

/-- The three whole-array windows: a position of the block is the same position of the array. -/
theorem weights_emb (t : Fin cfg0.N) (y : S2048x64.Idx) : ((cfg0.win 1).blk t).view.emb y = y := by
  obtain ⟨-, -, e0, e1, -⟩ := block_index_facts t
  funext a; apply Fin.ext
  match a with
  | ⟨0, _⟩ => show win0_1.index t (0 : Fin 2) * 2048 + 1 * (y 0).val = (y 0).val; omega
  | ⟨1, _⟩ => show win0_1.index t (1 : Fin 2) * 64 + 1 * (y 1).val = (y 1).val; omega
theorem colsum_emb (t : Fin cfg0.N) (y : S64.Idx) : ((cfg0.win 2).blk t).view.emb y = y := by
  obtain ⟨-, -, -, -, e0, -⟩ := block_index_facts t
  funext a; apply Fin.ext
  match a with
  | ⟨0, _⟩ => show win0_2.index t (0 : Fin 1) * 64 + 1 * (y 0).val = (y 0).val; omega
theorem bias_emb (t : Fin cfg0.N) (y : S64.Idx) : ((cfg0.win 3).blk t).view.emb y = y := by
  obtain ⟨-, -, -, -, -, e0, -⟩ := block_index_facts t
  funext a; apply Fin.ext
  match a with
  | ⟨0, _⟩ => show win0_3.index t (0 : Fin 1) * 64 + 1 * (y 0).val = (y 0).val; omega

end Cert.Readout

end
-- ==== Proof.Blocks.lean ====
/-
  From what each grid point writes back to the whole result array.

  Grid point `t` (of 64) stages rows `1024·t … 1024·t + 1023` of the input, the whole folded weight matrix and the two
  folded vectors, and writes back rows `1024·t … 1024·t + 1023` of the result.  Position `(p, q)` of its output block
  is position `(1024·t + p, q)` of the array; position `(p, h)` of its input block is position `(1024·t + p, h)` of
  the input; the other three blocks are the whole arrays.  So what the point writes back is the restriction to its
  block of ONE function of the argument arrays — softplus of the folded value of the row against the column's
  folded weights —, the 64 blocks tile the result, and the array after the run is that function.
-/
import proofs.«163319_j9096740733004_2_alg».proof.Proof.Gen.KernelIdeal.Value
import proofs.«163319_j9096740733004_2_alg».proof.Proof.KernelPoint
import proofs.«163319_j9096740733004_2_alg».proof.Proof.HostPrefix
import proofs.«163319_j9096740733004_2_alg».proof.Proof.Cover

noncomputable section

namespace Cert.Readout

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl
theorem zero_off1 : (![0] : Fin 1 → Nat) = fun _ => 0 := funext fun a => by fin_cases a <;> rfl

/-- The result array as the specification's function of the argument arrays at launch. -/
abbrev outOf (c : Dev nD) : S65536x64.Idx → EReal :=
  out (a0 m c) (a1 m c) (a2 m c) (a3 m c) (a4 m c)

/-- WHAT POINT `t` WRITES BACK is block `t` of the specification's function. -/
theorem flushed_eq (c : Dev nD) (t : Fin cfg0.N) :
    (dats m 0 c).flushed 4 t = ((cfg0.win 4).blk t).view.read (Elt Ideal) (outOf m c) := by
  rw [Cert.KernelIdeal.Value.flushed4]
  unfold out0_4
  rw [View.canon_unit_zero zero_off2]
  simp only [View.ld_unit_zero (S := S1024x2048) zero_off2, View.ld_unit_zero (S := S2048x64) zero_off2,
    View.ld_unit_zero (S := S64) zero_off1]
  obtain ⟨f00, f01, f10, f11, f2, f3, f40, f41⟩ := block_index_facts t
  have ht : t.val < 64 := t.isLt
  funext j
  obtain ⟨p, q, rfl⟩ : ∃ (p : Fin 1024) (q : Fin 64), j = ix2 p q := ⟨j 0, j 1, eq_ix2 j⟩
  show @Eq EReal (k0_pay1 (k0_pay3 (iblk m c 0 t) (iblk m c 1 t) (iblk m c 2 t) (iblk m c 3 t))
        (k0_pay5 (iblk m c 0 t) (iblk m c 1 t) (iblk m c 2 t) (iblk m c 3 t))
        (k0_pay6 (iblk m c 0 t) (iblk m c 1 t) (iblk m c 2 t) (iblk m c 3 t))
        (k0_pay7 (iblk m c 0 t) (iblk m c 1 t) (iblk m c 2 t) (iblk m c 3 t)) (ix2 p q))
      (outOf m c (((cfg0.win 4).blk t).view.emb (ix2 p q)))
  refine (body_out_apply (iblk m c 0 t) (iblk m c 1 t) (iblk m c 2 t) (iblk m c 3 t) p q).trans ?_
  have hp : p.val < 1024 := p.isLt
  -- the row of the array that row `p` of the block is
  have hi : ((cfg0.win 4).blk t).view.emb (ix2 p q) = ix2 (⟨t.val * 1024 + p.val, by omega⟩ : Fin 65536) q :=
    funext fun a => Fin.ext (by
      match a with
      | ⟨0, _⟩ => show win0_4.index t (0 : Fin 2) * 1024 + 1 * p.val = t.val * 1024 + p.val; omega
      | ⟨1, _⟩ => show win0_4.index t (1 : Fin 2) * 64 + 1 * q.val = q.val; omega)
  rw [hi]
  -- the input block's row is that row of the input
  have hX : @Eq (Fin 2048 → EReal) (fun h : Fin 2048 => iblk m c 0 t (ix2 p h))
      (fun h => a0 m c (ix2 (⟨t.val * 1024 + p.val, by omega⟩ : Fin 65536) h)) := by
    funext h
    show @Eq EReal (V m c main_arg0 (((cfg0.win 0).blk t).view.emb (ix2 p h))) _
    rw [V_main_arg0]
    refine congrArg (a0 m c) (funext fun a => Fin.ext ?_)
    match a with
    | ⟨0, _⟩ => show win0_0.index t (0 : Fin 2) * 1024 + 1 * p.val = t.val * 1024 + p.val; omega
    | ⟨1, _⟩ => show win0_0.index t (1 : Fin 2) * 2048 + 1 * h.val = h.val; omega
  -- the other three blocks are the whole arrays the host operations left
  have hW : @Eq (Fin 2048 → EReal) (fun h : Fin 2048 => iblk m c 1 t (ix2 h q))
      (fun h => a3 m c (ix2 q h) * a1 m c (ix1 h)) := by
    funext h
    show @Eq EReal (V m c main_v10 (((cfg0.win 1).blk t).view.emb (ix2 h q))) _
    rw [weights_emb t (ix2 h q)]
    exact V_weights m c h q
  have hs : @Eq EReal (iblk m c 2 t (ix1 q)) (∑ h : Fin 2048, a3 m c (ix2 q h) * a1 m c (ix1 h)) := by
    show @Eq EReal (V m c main_v3 (((cfg0.win 2).blk t).view.emb (ix1 q))) _
    rw [colsum_emb t (ix1 q)]
    exact V_meanweight m c q
  have hb : @Eq EReal (iblk m c 3 t (ix1 q))
      (a4 m c (ix1 q) + ∑ h : Fin 2048, a2 m c (ix1 h) * a3 m c (ix2 q h)) := by
    show @Eq EReal (V m c main_v8 (((cfg0.win 3).blk t).view.emb (ix1 q))) _
    rw [bias_emb t (ix1 q)]
    exact V_bias m c q
  rw [hX, hW, hs, hb]
  rfl

/-- THE ARRAY after the run is the specification's function: every index lies in some point's block. -/
theorem final (c : Dev nD) : (dats m 0 c).arrAt 4 cfg0.N = outOf m c :=
  (dats m 0 c).arrAt_eq_of_cover 4 (outOf m c) (fun t _ => flushed_eq m c t) out_cover

/-- The kernel's run with the result array named by the specification's function, the arguments unchanged. -/
theorem kernel_run : θ_run defs (onTc (τ := τ) (main (F := Ideal))) ⟨m, fun _ => 0, ρ⟩ fun r => ∀ c : Dev nD,
      r.2.mem ((c : Thread nD τ).loc main_v11) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Readout

end
-- ==== Proof.lean ====
/-
  LayerNorm → linear layer (2048 → 64) → softplus, on 65536 rows: a kernel that folds LayerNorm's gain and shift through
  the linear layer against the plain composition.

  For a row `X` with mean `μ`, gain `γ`, shift `β`, weight row `W c` and bias `b c`, the reference computes

      softplus (∑ₕ ((X h − μ) · s · γ h + β h) · W c h + b c),        s = rsqrt (mean ((X − μ)²) + ε),

  and the kernel, from the folded operands `W c h · γ h`, `∑ₕ W c h · γ h` and `b c + ∑ₕ β h · W c h` that host
  operations prepare before the call,

      softplus (s' · (∑ₕ X h · (W c h · γ h) − μ · ∑ₕ W c h · γ h) + (b c + ∑ₕ β h · W c h)),   s' = rsqrt (mean (X²) − μ² + ε).

  Over the real numbers the two variances are equal and the sum distributes, so the two values are one (Algebra.lean);
  the precondition makes every entry a real number (Finite.lean), which is what distributivity needs on the extended
  reals (Bridge.lean puts the three together).  The kernel's result array is read block by block off its run (KernelPoint.lean, HostPrefix.lean, Cover.lean,
  Blocks.lean); the reference's off its run, stage by stage (RefValue.lean).  A change of float format and the order
  of a sum do not exist at the extended reals, and the idealisation rewrote nothing, so `preserves` is trivial.
-/
import proofs.«163319_j9096740733004_2_alg».proof.Defs
import proofs.«163319_j9096740733004_2_alg».proof.Proof.Gen.Kernel
import proofs.«163319_j9096740733004_2_alg».proof.Proof.Gen.Kernel.Skeleton
import proofs.«163319_j9096740733004_2_alg».proof.Proof.Gen.Kernel.Launch
import proofs.«163319_j9096740733004_2_alg».proof.Proof.Gen.Kernel.Points
import proofs.«163319_j9096740733004_2_alg».proof.Proof.Gen.Kernel.Frame
import proofs.«163319_j9096740733004_2_alg».proof.Proof.Gen.KernelIdeal
import proofs.«163319_j9096740733004_2_alg».proof.Proof.Gen.KernelIdeal.Skeleton
import proofs.«163319_j9096740733004_2_alg».proof.Proof.Gen.KernelIdeal.Launch
import proofs.«163319_j9096740733004_2_alg».proof.Proof.Gen.KernelIdeal.Points
import proofs.«163319_j9096740733004_2_alg».proof.Proof.Gen.KernelIdeal.Frame
import proofs.«163319_j9096740733004_2_alg».proof.Proof.Gen.ReferenceIdeal
import proofs.«163319_j9096740733004_2_alg».proof.Proof.Gen.Pre_finite_inputs
import proofs.«163319_j9096740733004_2_alg».proof.Proof.Gen.KernelIdeal.Value
import proofs.«163319_j9096740733004_2_alg».proof.Proof.Gen.ReferenceIdeal.Run
import proofs.«163319_j9096740733004_2_alg».proof.Proof.Gen.ReferenceIdeal.Read
import proofs.«163319_j9096740733004_2_alg».proof.Proof.Bridge
import proofs.«163319_j9096740733004_2_alg».proof.Proof.Blocks
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_kernel : Cert.frame_Kernel := fun m ρ _ => Cert.Kernel.Gen.frame m ρ

/-- So does the idealised kernel. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree and are finite, both programs end with the same result array: the kernel's is softplus of
    the folded value, the reference's softplus of the direct value, and for rows of real numbers these are one. -/
theorem algebraic : Cert.algebraic_KernelIdeal_ReferenceIdeal := by
  intro m ρ m' ρ' hpre hagree
  refine ⟨fun c => Cert.Readout.outOf m c, Cert.Readout.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2]
  exact Cert.Readout.ref_eq_out _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
